-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 134
  | .vmem => 15
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000x128, .f32⟩
  | 105 => ⟨S850000x1, .f32⟩
  | 106 => ⟨S850000x128, .f32⟩
  | 107 => ⟨S850000x128, .f32⟩
  | 108 => ⟨S_, .f32⟩
  | 109 => ⟨S50000x128, .f32⟩
  | 110 => ⟨S850000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S_, .f32⟩
  | 119 => ⟨S64x128, .f32⟩
  | 120 => ⟨S50000x1, .i32⟩
  | 121 => ⟨S64x128, .f32⟩
  | 122 => ⟨S_, .f32⟩
  | 123 => ⟨S50000, .f32⟩
  | 124 => ⟨S_, .f32⟩
  | 125 => ⟨S64, .f32⟩
  | 126 => ⟨S50000x1, .i32⟩
  | 127 => ⟨S64, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x128, .f32⟩
  | 5 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call2_cst : Ref sig .tc := ⟨.hbm, 92, rfl⟩
abbrev main_call2_v0 : Ref sig .tc := ⟨.hbm, 93, rfl⟩
abbrev main_v65 : Ref sig .tc := ⟨.hbm, 94, rfl⟩
abbrev main_v66 : Ref sig .tc := ⟨.hbm, 95, rfl⟩
abbrev main_c_12 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_14 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_call3_cst : Ref sig .tc := ⟨.hbm, 115, rfl⟩
abbrev main_call3_v0 : Ref sig .tc := ⟨.hbm, 116, rfl⟩
abbrev main_v83 : Ref sig .tc := ⟨.hbm, 117, rfl⟩
abbrev main_cst_15 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_cst_17 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 214
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S1x800000, .i32⟩
  | 74 => ⟨S800000, .i32⟩
  | 75 => ⟨S850000, .i32⟩
  | 76 => ⟨S1x800000, .i32⟩
  | 77 => ⟨S800000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S50000x128, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x128, .f32⟩
  | 122 => ⟨S850000x1, .f32⟩
  | 123 => ⟨S850000x128, .f32⟩
  | 124 => ⟨S850000x128, .f32⟩
  | 125 => ⟨S_, .f32⟩
  | 126 => ⟨S50000x128, .f32⟩
  | 127 => ⟨S850000x1, .i32⟩
  | _ => ⟨S50000x128, .f32⟩

abbrev hbmTy0_1 (i : Nat) : BufTy := match i % 128 with
  | 0 => ⟨S50000x128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S50000x128, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S64x128, .f32⟩
  | 72 => ⟨S50000x1, .i32⟩
  | 73 => ⟨S64x128, .f32⟩
  | 74 => ⟨S_, .f32⟩
  | 75 => ⟨S50000, .f32⟩
  | 76 => ⟨S_, .f32⟩
  | 77 => ⟨S64, .f32⟩
  | 78 => ⟨S50000x1, .i32⟩
  | 79 => ⟨S64, .f32⟩
  | 80 => ⟨S_, .f32⟩
  | 81 => ⟨S64, .f32⟩
  | 82 => ⟨S64, .f32⟩
  | 83 => ⟨S64x1, .f32⟩
  | 84 => ⟨S64x128, .f32⟩
  | 85 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v62 : Ref sig .tc := ⟨.hbm, 92, rfl⟩
abbrev main_c_13 : Ref sig .tc := ⟨.hbm, 93, rfl⟩
abbrev main_v63 : Ref sig .tc := ⟨.hbm, 94, rfl⟩
abbrev main_v64 : Ref sig .tc := ⟨.hbm, 95, rfl⟩
abbrev main_c_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_c_15 : Ref sig .tc := ⟨.hbm, 102, rfl⟩
abbrev main_v70 : Ref sig .tc := ⟨.hbm, 103, rfl⟩
abbrev main_v71 : Ref sig .tc := ⟨.hbm, 104, rfl⟩
abbrev main_c_16 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_20 : Ref sig .tc := ⟨.hbm, 142, rfl⟩
abbrev main_v103 : Ref sig .tc := ⟨.hbm, 143, rfl⟩
abbrev main_cst_21 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_22 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_23 : Ref sig .tc := ⟨.hbm, 152, rfl⟩
abbrev main_call4_v0 : Ref sig .tc := ⟨.hbm, 153, rfl⟩
abbrev main_call4_v1 : Ref sig .tc := ⟨.hbm, 154, rfl⟩
abbrev main_v110 : Ref sig .tc := ⟨.hbm, 155, rfl⟩
abbrev main_c_24 : Ref sig .tc := ⟨.hbm, 156, rfl⟩
abbrev main_v111 : Ref sig .tc := ⟨.hbm, 157, rfl⟩
abbrev main_v112 : Ref sig .tc := ⟨.hbm, 158, rfl⟩
abbrev main_c_25 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_c_27 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_28 : Ref sig .tc := ⟨.hbm, 176, rfl⟩
abbrev main_v127 : Ref sig .tc := ⟨.hbm, 177, rfl⟩
abbrev main_v128 : Ref sig .tc := ⟨.hbm, 178, rfl⟩
abbrev main_c_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_30 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_call5_cst : Ref sig .tc := ⟨.hbm, 195, rfl⟩
abbrev main_call5_v0 : Ref sig .tc := ⟨.hbm, 196, rfl⟩
abbrev main_v143 : Ref sig .tc := ⟨.hbm, 197, rfl⟩
abbrev main_cst_31 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_cst_32 : Ref sig .tc := ⟨.hbm, 202, rfl⟩
abbrev main_v147 : Ref sig .tc := ⟨.hbm, 203, rfl⟩
abbrev main_cst_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_34 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The idealized kernel program's run with its result named.

  The program is thirteen segments in a row — stretches of host operations and the three matrix-product regions —
  and the buffer contents at each boundary are a fold from the launch memory: a stretch applies its operations, a
  region replaces its arrays by what its write-backs leave. Every weakly fair execution terminates, the arguments end as
  launched, and the result buffer ends at the last boundary's contents `W13`. This is the frame's run with one more
  buffer read off the final thread state.
-/
import proofs.«176512_j6906307412291_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates; the result buffer ends at the last boundary's contents and the
    argument arrays as launched. -/
theorem run : θ_run defs (onTc (τ := τ) (main (F := F))) ⟨m, fun _ => 0, ρ⟩ (fun r => ∀ c : Dev nD,
      r.2.mem ((c.tc : Thread nD τ).loc main_v95) = W13 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v95 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Named

end
-- ==== Proof.Layers.lean ====
/-
  The graph-convolution network of this certificate, written once as plain functions of whole arrays.

  The node features x : [50000, 128] pass three times through a layer and are then averaged graph by graph.
  A layer takes the features h, multiplies them by a 128 × 128 weight matrix (`prod`, the one step the two
  programs carry out differently), and then aggregates along the edges: with `row` and `col` the source and
  target ends of the 800000 edges followed by the 50000 self loops, and with the edge weights
  norm e = dis (row e) · dis (col e), where dis = 1 / sqrt (degree) (zero at degree zero) and the degree of a node
  counts the edges arriving at it, the new features are

      max (b + Σ_{e : col e = v} norm e · (h W) (row e), 0).

  `aggregate` is everything of a layer after the matrix product, as a function of the product, the edge list and the
  bias; `pool` is the mean over the nodes of each of the 64 graphs (the count clamped below at one). Every step is the
  host operation both programs apply, in the order they apply it, so that each program's result is literally a
  composition of these functions and nothing about gathers, scatters or the degree has to be opened.
-/
import proofs.«176512_j6906307412291_1_alg».proof.Proof.Gen.ReferenceIdeal

noncomputable section

namespace Cert.Gcn

open Idealize.ShloMosaic Cert.ReferenceIdeal Cert.ReferenceIdeal.Gen

variable {F : FTy → Type} [FloatOps F]

/-- The source ends of the edges (row 0 of the edge list), followed by the self loops 0, 1, …, 49999. -/
def rowRaw (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The target ends of the edges (row 1 of the edge list), followed by the self loops. -/
def colRaw (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A list of node numbers as a column of gather indices, a negative number counted from the end (+ 50000). -/
def wrapIdx (r : (⟨S850000, .i32⟩ : BufTy).Contents (Elt F)) : (⟨S850000x1, .i32⟩ : BufTy).Contents (Elt F) :=
  broadcastInDim S850000x1 ![0] bcast_S850000_S850000x1_0 (select (cmpi .slt r (broadcastInDim S850000 ![] bcast_S_S850000 (constantI S_ 32 0#32))) (addi r (broadcastInDim S850000 ![] bcast_S_S850000 (constantI S_ 32 50000#32))) r)

/-- The degree of every node: one added at the target of every edge and self loop. -/
def deg (ei : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (colRaw ei)) (broadcastInDim S850000 ![] bcast_S_S850000 (constant S_ .f32 0x3F800000#32))

/-- 1 / sqrt (degree), and 0 where the degree is not positive. -/
def dis (ei : (⟨S2x800000, .i32⟩ : BufTy).Contents (Elt F)) : (⟨S50000, .f32⟩ : BufTy).Contents (Elt F) :=
  select (cmpf .ogt (deg ei) (broadcastInDim S50000 ![] bcast_S_S50000 (constant S_ .f32 0x00000000#32))) (Host.rsqrt (deg ei)) (broadcastInDim S50000 ![] bcast_S_S50000 (id (constant (F := F) S_ .f32 0x00000000#32)))

/-- The weight of every edge: dis at its source times dis at its target. -/
def norm (ei : (⟨S2x800000, .i32⟩ : BufTy).Contents (Elt F)) : (⟨S850000, .f32⟩ : BufTy).Contents (Elt F) :=
  mulf (Host.gather gather_S50000_S850000x1_S850000_n_0_n_n_0_1_1 (dis ei) (wrapIdx (rowRaw ei))) (Host.gather gather_S50000_S850000x1_S850000_n_0_n_n_0_1_1 (dis ei) (wrapIdx (colRaw ei)))

/-- A layer after its matrix product `hw`: the rows of `hw` at the edges' sources, each times its edge's weight, summed
    at the edges' targets; the bias added to every node; negative entries replaced by zero. -/
def aggregate (hw : (⟨S50000x128, .f32⟩ : BufTy).Contents (Elt F)) (ei : (⟨S2x800000, .i32⟩ : BufTy).Contents (Elt F))
    (b : (⟨S128, .f32⟩ : BufTy).Contents (Elt F)) : (⟨S50000x128, .f32⟩ : BufTy).Contents (Elt F) :=
  maximumf (addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (colRaw ei)) (mulf (Host.gather gather_S50000x128_S850000x1_S850000x128_1_0_n_n_0_1_1128 hw (wrapIdx (rowRaw ei))) (broadcastInDim S850000x128 ![0, 1] bcast_S850000x1_S850000x128_0_1 (broadcastInDim S850000x1 ![0] bcast_S850000_S850000x1_0 (norm ei))))) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The mean of the node features over each graph: the features summed at every node's graph number, divided by the
    number of the graph's nodes, that number taken to be at least one. -/
def pool (h : (⟨S50000x128, .f32⟩ : BufTy).Contents (Elt F)) (batch : (⟨S50000, .i32⟩ : BufTy).Contents (Elt F)) :
    (⟨S64x128, .f32⟩ : BufTy).Contents (Elt F) :=
  Host.divf (Host.scatterAdd scatter_S64x128_S50000x1_S50000x128_1_0_0_1 (broadcastInDim S64x128 ![] bcast_S_S64x128 (constant S_ .f32 0x00000000#32)) (broadcastInDim S50000x1 ![0] bcast_S50000_S50000x1_0 batch) h) (broadcastInDim S64x128 ![0, 1] bcast_S64x1_S64x128_0_1 (broadcastInDim S64x1 ![0] bcast_S64_S64x1_0 (maximumf (Host.scatterAdd scatter_S64_S50000x1_S50000_n_0_0_1 (broadcastInDim S64 ![] bcast_S_S64 (constant S_ .f32 0x00000000#32)) (broadcastInDim S50000x1 ![0] bcast_S50000_S50000x1_0 batch) (broadcastInDim S50000 ![] bcast_S_S50000 (constant S_ .f32 0x3F800000#32))) (broadcastInDim S64 ![] bcast_S_S64 (constant S_ .f32 0x3F800000#32)))))

/-- The matrix product of a layer, as the host computes it: [50000, 128] × [128, 128]. -/
def prod (h : (⟨S50000x128, .f32⟩ : BufTy).Contents (Elt F)) (w : (⟨S128x128, .f32⟩ : BufTy).Contents (Elt F)) :
    (⟨S50000x128, .f32⟩ : BufTy).Contents (Elt F) :=
  Host.dotGeneral dot_S50000x128_S128x128_S50000x128_1_0_0_1_n_n none h w

/-- The whole network: three layers, then the mean over each graph. -/
def network (x : (⟨S50000x128, .f32⟩ : BufTy).Contents (Elt F)) (ei : (⟨S2x800000, .i32⟩ : BufTy).Contents (Elt F))
    (batch : (⟨S50000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F)) :
    (⟨S64x128, .f32⟩ : BufTy).Contents (Elt F) :=
  pool (aggregate (prod (aggregate (prod (aggregate (prod x w1) ei b1) w2) ei b2) w3) ei b3) batch

end Cert.Gcn

end
-- ==== Proof.Reads.lean ====
/-
  The kernel program's host side, read back from ANY contents.

  Between and around its three matrix-product regions the program runs stretches of host operations. Here the buffer
  contents are followed from arbitrary launch contents `V0` through the stretches, each region replacing its arrays by
  arbitrary arrays `A0`, `A1`, `A2` (what its write-backs leave: the output array is entry 2). Read where the next
  step needs them:

  * each region is entered with its weight matrix as launched, and with node features that are, for the first region,
    the launched ones, and for the others the previous region's output aggregated along the edges (`aggregate`, with
    the previous layer's bias);
  * the program's result is the last region's output, aggregated once more and averaged graph by graph (`pool`).

  The edge lists and the edge weights are computed once, before the first region, and are still in their buffers when
  the later stretches read them — no operation in between and no region writes those buffers.
-/
import proofs.«176512_j6906307412291_1_alg».proof.Proof.Gen.KernelIdeal.Launch
import proofs.«176512_j6906307412291_1_alg».proof.Proof.Layers
import Idealize.ShloMosaic.Lib.Pipeline.FrameSuffix
import Idealize.ShloMosaic.Lib.StableHlo.Run

set_option maxRecDepth 16384

noncomputable section

namespace Cert.KernelIdeal.Reads

open Idealize.ShloMosaic Idealize.ShloMosaic.TcCoe Idealize.ShloMosaic.StableHlo Idealize.SL.Sem
open Cert.KernelIdeal Cert.KernelIdeal.Gen

variable {F : FTy → Type} [FloatOps F]

variable (c : Dev nD) (V0 : Valuation τ sig (Elt F))
  (A0 : (w : Fin 3) → Buf (Elt F) ((spec0 w).arr.view.loc (c.tc : Thread nD τ)))
  (A1 : (w : Fin 3) → Buf (Elt F) ((spec1 w).arr.view.loc (c.tc : Thread nD τ)))
  (A2 : (w : Fin 3) → Buf (Elt F) ((spec2 w).arr.view.loc (c.tc : Thread nD τ)))

/-! ## A region's exit contents at a buffer: its output array, or what was there -/

theorem wa0_out (V : Valuation τ sig (Elt F)) :
    Pipeline.withArrays spec0 c V A0 (no_index (Proc.devRef .tc main_v30)) = A0 2 :=
  Pipeline.withArrays_arr spec0 launch0.win.arr_inj c V A0 2
theorem wa0_ne (V : Valuation τ sig (Elt F)) (b : Ref sig .tc) (hb : ∀ w, Pipeline.arrRef spec0 w ≠ b) :
    Pipeline.withArrays spec0 c V A0 (no_index (Proc.devRef .tc b)) = V (Proc.devRef .tc b) :=
  Pipeline.withArrays_of_ne spec0 c V A0 b hb
theorem wa1_out (V : Valuation τ sig (Elt F)) :
    Pipeline.withArrays spec1 c V A1 (no_index (Proc.devRef .tc main_v48)) = A1 2 :=
  Pipeline.withArrays_arr spec1 launch1.win.arr_inj c V A1 2
theorem wa1_ne (V : Valuation τ sig (Elt F)) (b : Ref sig .tc) (hb : ∀ w, Pipeline.arrRef spec1 w ≠ b) :
    Pipeline.withArrays spec1 c V A1 (no_index (Proc.devRef .tc b)) = V (Proc.devRef .tc b) :=
  Pipeline.withArrays_of_ne spec1 c V A1 b hb
theorem wa2_out (V : Valuation τ sig (Elt F)) :
    Pipeline.withArrays spec2 c V A2 (no_index (Proc.devRef .tc main_v66)) = A2 2 :=
  Pipeline.withArrays_arr spec2 launch2.win.arr_inj c V A2 2
theorem wa2_ne (V : Valuation τ sig (Elt F)) (b : Ref sig .tc) (hb : ∀ w, Pipeline.arrRef spec2 w ≠ b) :
    Pipeline.withArrays spec2 c V A2 (no_index (Proc.devRef .tc b)) = V (Proc.devRef .tc b) :=
  Pipeline.withArrays_of_ne spec2 c V A2 b hb

/-! ## What each region is entered with -/

/-- The first region's node features are the launched ones. -/
theorem entry0_features : (after hostOps0_2 (after hostOps0_1 (after hostOps0 V0))) (Proc.devRef .tc main_arg0) = (V0 (Proc.devRef .tc main_arg0)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]
/-- The first region's weight matrix is the launched one. -/
theorem entry0_weights : (after hostOps0_2 (after hostOps0_1 (after hostOps0 V0))) (Proc.devRef .tc main_arg3) = (V0 (Proc.devRef .tc main_arg3)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]

/-- The second region's node features: the first region's output aggregated along the edges, with the first bias. -/
theorem entry1_features : (after hostOps1_1 (after hostOps1 (Pipeline.withArrays spec0 c (after hostOps0_2 (after hostOps0_1 (after hostOps0 V0))) A0))) (Proc.devRef .tc main_v47)
    = Cert.Gcn.aggregate (A0 2) (V0 (Proc.devRef .tc main_arg1)) (V0 (Proc.devRef .tc main_arg4)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]
  rfl
/-- The second region's weight matrix is the launched one. -/
theorem entry1_weights : (after hostOps1_1 (after hostOps1 (Pipeline.withArrays spec0 c (after hostOps0_2 (after hostOps0_1 (after hostOps0 V0))) A0))) (Proc.devRef .tc main_arg5) = (V0 (Proc.devRef .tc main_arg5)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]

/-- The third region's node features: the second region's output aggregated along the edges, with the second bias. -/
theorem entry2_features : (after hostOps2_1 (after hostOps2 (Pipeline.withArrays spec1 c (after hostOps1_1 (after hostOps1 (Pipeline.withArrays spec0 c (after hostOps0_2 (after hostOps0_1 (after hostOps0 V0))) A0))) A1))) (Proc.devRef .tc main_v65)
    = Cert.Gcn.aggregate (A1 2) (V0 (Proc.devRef .tc main_arg1)) (V0 (Proc.devRef .tc main_arg6)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]
  rfl
/-- The third region's weight matrix is the launched one. -/
theorem entry2_weights : (after hostOps2_1 (after hostOps2 (Pipeline.withArrays spec1 c (after hostOps1_1 (after hostOps1 (Pipeline.withArrays spec0 c (after hostOps0_2 (after hostOps0_1 (after hostOps0 V0))) A0))) A1))) (Proc.devRef .tc main_arg7) = (V0 (Proc.devRef .tc main_arg7)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]

/-! ## The result -/

set_option maxHeartbeats 8000000 in
/-- The program's result: the third region's output aggregated along the edges, with the third bias, and averaged over
    each graph. -/
theorem result : (after hostOps3_2 (after hostOps3_1 (after hostOps3 (Pipeline.withArrays spec2 c (after hostOps2_1 (after hostOps2 (Pipeline.withArrays spec1 c (after hostOps1_1 (after hostOps1 (Pipeline.withArrays spec0 c (after hostOps0_2 (after hostOps0_1 (after hostOps0 V0))) A0))) A1))) A2)))) (Proc.devRef .tc main_v95)
    = Cert.Gcn.pool (Cert.Gcn.aggregate (A2 2) (V0 (Proc.devRef .tc main_arg1)) (V0 (Proc.devRef .tc main_arg8))) (V0 (Proc.devRef .tc main_arg2)) := by
  simp (disch := decide) only [hostOps0, hostOps0_1, hostOps0_2, hostOps1, hostOps1_1, hostOps2, hostOps2_1, hostOps3, hostOps3_1, hostOps3_2,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne',
    wa0_out, wa0_ne, wa1_out, wa1_ne, wa2_out, wa2_ne]
  rfl

end Cert.KernelIdeal.Reads

end
-- ==== Proof.Block.lean ====
/-
  One block of a layer's matrix product, read entry by entry.

  Each of the three matrix-product kernels loads a [5000, 128] block of node features and the whole [128, 128] weight
  matrix, rounds both to bf16 — which changes nothing on the extended reals — and multiplies them on the matrix unit
  into a zero accumulator. So entry (p, q) of what it stores is Σ_k x[p, k] · w[k, q], the sum over the 128 columns of
  the block's row p against the weight matrix's column q.
-/
import proofs.«176512_j6906307412291_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Block

open Idealize.ShloMosaic Cert.KernelIdeal Cert.KernelIdeal.Gen

/-- Entry k of the block's row through `j`. -/
abbrev lrow (j : S5000x128.Idx) (k : Fin 128) : S5000x128.Idx := fun a => match a with
  | ⟨0, _⟩ => ⟨(j 0).val, (j 0).isLt⟩
  | ⟨1, _⟩ => ⟨k.val, k.isLt⟩
/-- Entry k of the weight matrix's column through `j`. -/
abbrev rcol (j : S5000x128.Idx) (k : Fin 128) : S128x128.Idx := fun a => match a with
  | ⟨0, _⟩ => ⟨k.val, k.isLt⟩
  | ⟨1, _⟩ => ⟨(j 1).val, (j 1).isLt⟩

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at an entry: the row against the column. -/
theorem product_apply (x0 : FVec Ideal S5000x128 .bf16) (x1 : FVec Ideal S128x128 .bf16) (j : S5000x128.Idx) :
    FloatOps.matmul dot_S5000x128_S128x128_S5000x128_1_0_0_1_n_n none x0 x1 (constant S5000x128 .f32 0x00000000#32) j
      = ∑ k : Fin 128, x0 (lrow j k) * x1 (rcol j k) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = lrow j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((ValueIdx.contrEquiv1 dot_S5000x128_S128x128_S5000x128_1_0_0_1_n_n 128 rfl rfl).symm k) = rcol j k := funext fun a => Fin.ext (by
    match a with
    | ⟨0, _⟩ => exact (rhs_0 _ _).trans hk
    | ⟨1, _⟩ => exact rhs_1 _ _)
  rw [el, er]

/-- What the first kernel stores, at an entry. -/
theorem pay0_apply (x0 : Vec Ideal S5000x128 .f32) (x1 : Vec Ideal S128x128 .f32) (j : S5000x128.Idx) :
    k0_pay1 (F := Ideal) x0 x1 j = ∑ k : Fin 128, (x0 (lrow j k) : EReal) * (x1 (rcol j k) : EReal) := by
  unfold k0_pay1
  exact product_apply _ _ j

/-- What the second kernel stores, at an entry (its block passes a cast to its own shape first). -/
theorem pay1_apply (x0 : Vec Ideal S5000x128 .f32) (x1 : Vec Ideal S128x128 .f32) (j : S5000x128.Idx) :
    k1_pay1 (F := Ideal) x0 x1 j = ∑ k : Fin 128, (x0 (lrow j k) : EReal) * (x1 (rcol j k) : EReal) := by
  unfold k1_pay1
  rw [shapeCast_self]
  exact product_apply _ _ j

/-- What the third kernel stores, at an entry. -/
theorem pay2_apply (x0 : Vec Ideal S5000x128 .f32) (x1 : Vec Ideal S128x128 .f32) (j : S5000x128.Idx) :
    k2_pay1 (F := Ideal) x0 x1 j = ∑ k : Fin 128, (x0 (lrow j k) : EReal) * (x1 (rcol j k) : EReal) := by
  unfold k2_pay1
  rw [shapeCast_self]
  exact product_apply _ _ j

end Cert.KernelIdeal.Block

end
-- ==== Proof.HostProduct.lean ====
/-
  The host's matrix product of a layer, read entry by entry: on the extended reals the host's `dot_general` of
  h : [50000, 128] and w : [128, 128] has, at entry (r, q), the value Σ_k h[r, k] · w[k, q].
-/
import proofs.«176512_j6906307412291_1_alg».proof.Proof.Layers
import Idealize.ShloMosaic.Lib.ValueIdx
import Idealize.ShloMosaic.PureOps.Ideal.Laws

noncomputable section

namespace Cert.Gcn

open Idealize.ShloMosaic Cert.ReferenceIdeal

/-- Entry k of the feature matrix's row through `i`. -/
abbrev frow (i : S50000x128.Idx) (k : Fin 128) : S50000x128.Idx := fun a => match a with
  | ⟨0, _⟩ => ⟨(i 0).val, (i 0).isLt⟩
  | ⟨1, _⟩ => ⟨k.val, k.isLt⟩
/-- Entry k of the weight matrix's column through `i`. -/
abbrev wcol (i : S50000x128.Idx) (k : Fin 128) : S128x128.Idx := fun a => match a with
  | ⟨0, _⟩ => ⟨k.val, k.isLt⟩
  | ⟨1, _⟩ => ⟨(i 1).val, (i 1).isLt⟩

theorem dlhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem dlhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem drhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem drhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The host's product at an entry: the row against the column. -/
theorem prod_apply (h : (⟨S50000x128, .f32⟩ : BufTy).Contents (Elt Ideal)) (w : (⟨S128x128, .f32⟩ : BufTy).Contents (Elt Ideal)) (i : S50000x128.Idx) :
    prod (F := Ideal) h w i = ∑ k : Fin 128, h (frow i k) * w (wcol i k) := by
  unfold prod
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = frow i k := funext fun a => Fin.ext (by
    match a with
    | ⟨0, _⟩ => exact dlhs_0 _ _
    | ⟨1, _⟩ => exact (dlhs_1 _ _).trans hk)
  have er : dot_S50000x128_S128x128_S50000x128_1_0_0_1_n_n.rhsIdx i ((ValueIdx.contrEquiv1 dot_S50000x128_S128x128_S50000x128_1_0_0_1_n_n 128 rfl rfl).symm k) = wcol i k := funext fun a => Fin.ext (by
    match a with
    | ⟨0, _⟩ => exact (drhs_0 _ _).trans hk
    | ⟨1, _⟩ => exact drhs_1 _ _)
  rw [el, er]

end Cert.Gcn

end
-- ==== Proof.Region0.lean ====
/-
  The first matrix-product region, as one function of the arrays it finds.

  The region walks the 50000 rows of its feature array in ten blocks of 5000 rows; at block t it multiplies rows
  5000 t … 5000 t + 4999 by the whole weight matrix and writes the product to the same rows of its output array. Entry
  (r, q) of the output is therefore Σ_k h[r, k] · w[k, q] — the host's matrix product of the two arrays — whatever
  the region finds in them: the ten blocks cover every row (row r lies in block r / 5000).
-/
import proofs.«176512_j6906307412291_1_alg».proof.Proof.Gen.KernelIdeal.Frame
import proofs.«176512_j6906307412291_1_alg».proof.Proof.Block
import proofs.«176512_j6906307412291_1_alg».proof.Proof.HostProduct

set_option maxRecDepth 16384

noncomputable section

namespace Cert.KernelIdeal.Region0

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where the blocks sit: at point t the feature block and the output block are block t of the rows, over all 128
    columns; the weight matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the host's product of the two arrays. -/
theorem flushed_eq (c : Dev nD) (t : Fin cfg0.N) :
    (dat0 V c).flushed 2 t = ((cfg0.win 2).blk t).view.read (Elt Ideal)
      (Cert.Gcn.prod (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  show k0_pay1 (iblk0 V c 0 t) (iblk0 V c 1 t) j
    = Cert.Gcn.prod (F := Ideal) (V c main_arg0) (V c main_arg3) (((cfg0.win 2).blk t).view.emb j)
  refine (Block.pay0_apply (iblk0 V c 0 t) (iblk0 V c 1 t) j).trans ?_
  refine Eq.trans ?_ (Cert.Gcn.prod_apply (V c main_arg0) (V c main_arg3) (((cfg0.win 2).blk t).view.emb j)).symm
  refine Finset.sum_congr rfl fun k _ => ?_
  have h0 : iblk0 V c 0 t (Block.lrow j k) = V c main_arg0 (Cert.Gcn.frow (((cfg0.win 2).blk t).view.emb j) k) := by
    show V c main_arg0 (((cfg0.win 0).blk t).view.emb (Block.lrow j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : iblk0 V c 1 t (Block.rcol j k) = V c main_arg3 (Cert.Gcn.wcol (((cfg0.win 2).blk t).view.emb j) k) := by
    show V c main_arg3 (((cfg0.win 1).blk t).view.emb (Block.rcol j k)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1]

/-- An index of the output array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every entry of the output array is written: row r by the block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_2 _, ?_⟩
  rw [mem_blk]
  obtain ⟨-, -, -, -, e4, e5⟩ := idx_facts ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- The region's output array after its run: the host's matrix product of the two arrays it was entered with. -/
theorem output (c : Dev nD) :
    (dat0 V c).arrAt 2 cfg0.N = Cert.Gcn.prod (F := Ideal) (V c main_arg0) (V c main_arg3) :=
  (dat0 V c).arrAt_eq_of_cover 2 _ (fun t _ => flushed_eq V c t) (cover)

end Cert.KernelIdeal.Region0

end
-- ==== Proof.Region1.lean ====
/-
  The second matrix-product region, as one function of the arrays it finds.

  The region walks the 50000 rows of its feature array in ten blocks of 5000 rows; at block t it multiplies rows
  5000 t … 5000 t + 4999 by the whole weight matrix and writes the product to the same rows of its output array. Entry
  (r, q) of the output is therefore Σ_k h[r, k] · w[k, q] — the host's matrix product of the two arrays — whatever
  the region finds in them: the ten blocks cover every row (row r lies in block r / 5000).
-/
import proofs.«176512_j6906307412291_1_alg».proof.Proof.Gen.KernelIdeal.Frame
import proofs.«176512_j6906307412291_1_alg».proof.Proof.Block
import proofs.«176512_j6906307412291_1_alg».proof.Proof.HostProduct

set_option maxRecDepth 16384

noncomputable section

namespace Cert.KernelIdeal.Region1

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where the blocks sit: at point t the feature block and the output block are block t of the rows, over all 128
    columns; the weight matrix is one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the host's product of the two arrays. -/
theorem flushed_eq (c : Dev nD) (t : Fin cfg1.N) :
    (dat1 V c).flushed 2 t = ((cfg1.win 2).blk t).view.read (Elt Ideal)
      (Cert.Gcn.prod (F := Ideal) (V c main_v47) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx_facts t
  funext j
  show k1_pay1 (iblk1 V c 0 t) (iblk1 V c 1 t) j
    = Cert.Gcn.prod (F := Ideal) (V c main_v47) (V c main_arg5) (((cfg1.win 2).blk t).view.emb j)
  refine (Block.pay1_apply (iblk1 V c 0 t) (iblk1 V c 1 t) j).trans ?_
  refine Eq.trans ?_ (Cert.Gcn.prod_apply (V c main_v47) (V c main_arg5) (((cfg1.win 2).blk t).view.emb j)).symm
  refine Finset.sum_congr rfl fun k _ => ?_
  have h0 : iblk1 V c 0 t (Block.lrow j k) = V c main_v47 (Cert.Gcn.frow (((cfg1.win 2).blk t).view.emb j) k) := by
    show V c main_v47 (((cfg1.win 0).blk t).view.emb (Block.lrow j k)) = _
    refine congrArg (V c main_v47) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * k.val = k.val; omega
  have h1 : iblk1 V c 1 t (Block.rcol j k) = V c main_arg5 (Cert.Gcn.wcol (((cfg1.win 2).blk t).view.emb j) k) := by
    show V c main_arg5 (((cfg1.win 1).blk t).view.emb (Block.rcol j k)) = _
    refine congrArg (V c main_arg5) (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  rw [h0, h1]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every entry of the output array is written: row r by the block r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_2 _, ?_⟩
  rw [mem_blk]
  obtain ⟨-, -, -, -, e4, e5⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- The region's output array after its run: the host's matrix product of the two arrays it was entered with. -/
theorem output (c : Dev nD) :
    (dat1 V c).arrAt 2 cfg1.N = Cert.Gcn.prod (F := Ideal) (V c main_v47) (V c main_arg5) :=
  (dat1 V c).arrAt_eq_of_cover 2 _ (fun t _ => flushed_eq V c t) (cover)

end Cert.KernelIdeal.Region1

end
-- ==== Proof.Region2.lean ====
/-
  The third matrix-product region, as one function of the arrays it finds.

  The region walks the 50000 rows of its feature array in ten blocks of 5000 rows; at block t it multiplies rows
  5000 t … 5000 t + 4999 by the whole weight matrix and writes the product to the same rows of its output array. Entry
  (r, q) of the output is therefore Σ_k h[r, k] · w[k, q] — the host's matrix product of the two arrays — whatever
  the region finds in them: the ten blocks cover every row (row r lies in block r / 5000).
-/
import proofs.«176512_j6906307412291_1_alg».proof.Proof.Gen.KernelIdeal.Frame
import proofs.«176512_j6906307412291_1_alg».proof.Proof.Block
import proofs.«176512_j6906307412291_1_alg».proof.Proof.HostProduct

set_option maxRecDepth 16384

noncomputable section

namespace Cert.KernelIdeal.Region2

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Where the blocks sit: at point t the feature block and the output block are block t of the rows, over all 128
    columns; the weight matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the host's product of the two arrays. -/
theorem flushed_eq (c : Dev nD) (t : Fin cfg2.N) :
    (dat2 V c).flushed 2 t = ((cfg2.win 2).blk t).view.read (Elt Ideal)
      (Cert.Gcn.prod (F := Ideal) (V c main_v65) (V c main_arg7)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (iblk2 V c 0 t) (iblk2 V c 1 t) j
    = Cert.Gcn.prod (F := Ideal) (V c main_v65) (V c main_arg7) (((cfg2.win 2).blk t).view.emb j)
  refine (Block.pay2_apply (iblk2 V c 0 t) (iblk2 V c 1 t) j).trans ?_
  refine Eq.trans ?_ (Cert.Gcn.prod_apply (V c main_v65) (V c main_arg7) (((cfg2.win 2).blk t).view.emb j)).symm
  refine Finset.sum_congr rfl fun k _ => ?_
  have h0 : iblk2 V c 0 t (Block.lrow j k) = V c main_v65 (Cert.Gcn.frow (((cfg2.win 2).blk t).view.emb j) k) := by
    show V c main_v65 (((cfg2.win 0).blk t).view.emb (Block.lrow j k)) = _
    refine congrArg (V c main_v65) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (Block.rcol j k) = V c main_arg7 (Cert.Gcn.wcol (((cfg2.win 2).blk t).view.emb j) k) := by
    show V c main_arg7 (((cfg2.win 1).blk t).view.emb (Block.rcol j k)) = _
    refine congrArg (V c main_arg7) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [h0, h1]

/-- An index of the output array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v66).slice (win2_2.rect t)).set ↔ _
  rw [View.set_slice_whole, Rect.mem_set_unit]
  exact Iff.rfl

/-- Every entry of the output array is written: row r by the block r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_2 _, ?_⟩
  rw [mem_blk]
  obtain ⟨-, -, -, -, e4, e5⟩ := idx_facts ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- The region's output array after its run: the host's matrix product of the two arrays it was entered with. -/
theorem output (c : Dev nD) :
    (dat2 V c).arrAt 2 cfg2.N = Cert.Gcn.prod (F := Ideal) (V c main_v65) (V c main_arg7) :=
  (dat2 V c).arrAt_eq_of_cover 2 _ (fun t _ => flushed_eq V c t) (cover)

end Cert.KernelIdeal.Region2

end
-- ==== Proof.KernelValue.lean ====
/-
  The idealized kernel program's result is the network.

  Reading the boundary contents back from the end: the result is the third region's output aggregated and averaged; a
  region's output is the host's matrix product of the arrays it was entered with; the third region was entered with
  the second region's output aggregated, and the third weight matrix; the second with the first region's output
  aggregated, and the second weight matrix; the first with the launched node features and the first weight matrix.
  Composed, that is three layers and the mean over each graph, of the launched arguments.
-/
import proofs.«176512_j6906307412291_1_alg».proof.Proof.Gen.KernelIdeal.Frame
import proofs.«176512_j6906307412291_1_alg».proof.Proof.Reads
import proofs.«176512_j6906307412291_1_alg».proof.Proof.Region0
import proofs.«176512_j6906307412291_1_alg».proof.Proof.Region1
import proofs.«176512_j6906307412291_1_alg».proof.Proof.Region2

set_option maxRecDepth 16384

noncomputable section

namespace Cert.KernelIdeal.Named

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The three regions' exit arrays. -/
abbrev out0 (c : Dev nD) := fun w => (dat0 (V3 m ρ) c).arrAt w cfg0.N
abbrev out1 (c : Dev nD) := fun w => (dat1 (V6 m ρ) c).arrAt w cfg1.N
abbrev out2 (c : Dev nD) := fun w => (dat2 (V9 m ρ) c).arrAt w cfg2.N

theorem features0 (c : Dev nD) : V3 m ρ c main_arg0 = (m ((c.tc : Thread nD τ).loc main_arg0)) :=
  Reads.entry0_features (W0 m ρ c)
theorem weights0 (c : Dev nD) : V3 m ρ c main_arg3 = (m ((c.tc : Thread nD τ).loc main_arg3)) :=
  Reads.entry0_weights (W0 m ρ c)
theorem features1 (c : Dev nD) : V6 m ρ c main_v47
    = Cert.Gcn.aggregate ((dat0 (V3 m ρ) c).arrAt 2 cfg0.N) (m ((c.tc : Thread nD τ).loc main_arg1)) (m ((c.tc : Thread nD τ).loc main_arg4)) :=
  Reads.entry1_features c (W0 m ρ c) (out0 m ρ c)
theorem weights1 (c : Dev nD) : V6 m ρ c main_arg5 = (m ((c.tc : Thread nD τ).loc main_arg5)) :=
  Reads.entry1_weights c (W0 m ρ c) (out0 m ρ c)
theorem features2 (c : Dev nD) : V9 m ρ c main_v65
    = Cert.Gcn.aggregate ((dat1 (V6 m ρ) c).arrAt 2 cfg1.N) (m ((c.tc : Thread nD τ).loc main_arg1)) (m ((c.tc : Thread nD τ).loc main_arg6)) :=
  Reads.entry2_features c (W0 m ρ c) (out0 m ρ c) (out1 m ρ c)
theorem weights2 (c : Dev nD) : V9 m ρ c main_arg7 = (m ((c.tc : Thread nD τ).loc main_arg7)) :=
  Reads.entry2_weights c (W0 m ρ c) (out0 m ρ c) (out1 m ρ c)
theorem result_read (c : Dev nD) : W13 m ρ c (Proc.devRef .tc main_v95)
    = Cert.Gcn.pool (Cert.Gcn.aggregate ((dat2 (V9 m ρ) c).arrAt 2 cfg2.N) (m ((c.tc : Thread nD τ).loc main_arg1)) (m ((c.tc : Thread nD τ).loc main_arg8))) (m ((c.tc : Thread nD τ).loc main_arg2)) :=
  Reads.result c (W0 m ρ c) (out0 m ρ c) (out1 m ρ c) (out2 m ρ c)

/-- The last boundary's contents at the result buffer: the network of the launched arguments. -/
theorem result_eq (c : Dev nD) : W13 m ρ c (Proc.devRef .tc main_v95)
    = Cert.Gcn.network (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [result_read, Region2.output (V9 m ρ) c, features2, weights2, Region1.output (V6 m ρ) c, features1, weights1,
    Region0.output (V3 m ρ) c, features0, weights0]
  rfl

end Cert.KernelIdeal.Named

end
-- ==== Proof.RefValue.lean ====
/-
  The reference program's result is the network: its run ends with the result buffer at the composition of its 205
  host operations over the launched arguments, and that composition is, operation for operation, three times
  (matrix product, then aggregation along the edges) followed by the mean over each graph. The reference recomputes
  the edge lists and the edge weights in every layer; being the same operations of the same edge list, they are the
  same terms each time.
-/
import proofs.«176512_j6906307412291_1_alg».proof.Proof.RefRun
import proofs.«176512_j6906307412291_1_alg».proof.Proof.Layers

set_option maxRecDepth 16384

noncomputable section

namespace Cert.Gcn

open Idealize.ShloMosaic Idealize.ShloMosaic.TcCoe Idealize.SL.Sem Cert.ReferenceIdeal

variable {F : FTy → Type} [FloatOps F]

theorem reference_result (m : (ℓ : Loc nD τ sig) → Buf (Elt F) ℓ) (c : Dev nD) :
    Cert.ReferenceIdeal.ValueP.res_main_v155 m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.ValueP.res_main_v155
  rfl

end Cert.Gcn

end
-- ==== Proof.lean ====
/-
  A three-layer graph-convolution network with a mean over each graph, computed two ways.

  Both programs run the same host operations around the one step they carry out differently, the product of the node
  features [50000, 128] with a [128, 128] weight matrix: the reference as one host `dot_general`, the kernel program as a
  pipelined region that multiplies ten blocks of 5000 rows on the matrix unit, its operands rounded to bf16 first. On
  the extended reals the rounding is the identity and a block's product into a zero accumulator is the row-by-column
  sum, so the region's output is the host's product of the arrays it is entered with (Region0 / Region1 / Region2 over
  Block and HostProduct). Everything else — the edge lists with their self loops, the degrees, the edge weights, the
  gather, scale and scatter-add of a layer, the bias, the clamp at zero, the mean over each graph — is the same sequence
  of host operations in both programs, named once in Layers as functions of whole arrays and never opened. The kernel
  program's run (KernelRun) ends with its result at the last boundary's contents, which read back through the
  stretches and the regions (Reads, KernelValue) are `network` of the launched arguments; the reference's run (RefRun)
  ends at the composition of its operations, which is the same `network` (RefValue). No finiteness is used: no law of
  arithmetic is applied to the entries at all.

  The three frames: the two kernel programs' are the generated ones; the reference's is its run with the result
  dropped. The idealization rewrote nothing, so `preserves` is trivial.
-/
import proofs.«176512_j6906307412291_1_alg».proof.Defs
import proofs.«176512_j6906307412291_1_alg».proof.Proof.Gen.Kernel
import proofs.«176512_j6906307412291_1_alg».proof.Proof.Gen.Kernel.Skeleton
import proofs.«176512_j6906307412291_1_alg».proof.Proof.Gen.Kernel.Launch
import proofs.«176512_j6906307412291_1_alg».proof.Proof.Gen.Kernel.Points
import proofs.«176512_j6906307412291_1_alg».proof.Proof.Gen.Kernel.Frame
import proofs.«176512_j6906307412291_1_alg».proof.Proof.Gen.KernelIdeal
import proofs.«176512_j6906307412291_1_alg».proof.Proof.Gen.KernelIdeal.Skeleton
import proofs.«176512_j6906307412291_1_alg».proof.Proof.Gen.KernelIdeal.Launch
import proofs.«176512_j6906307412291_1_alg».proof.Proof.Gen.KernelIdeal.Points
import proofs.«176512_j6906307412291_1_alg».proof.Proof.Gen.KernelIdeal.Frame
import proofs.«176512_j6906307412291_1_alg».proof.Proof.Gen.ReferenceIdeal
import proofs.«176512_j6906307412291_1_alg».proof.Proof.Gen.Pre_finite_inputs
import proofs.«176512_j6906307412291_1_alg».proof.Proof.KernelRun
import proofs.«176512_j6906307412291_1_alg».proof.Proof.KernelValue
import proofs.«176512_j6906307412291_1_alg».proof.Proof.RefRun
import proofs.«176512_j6906307412291_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at `network` of the launched arguments, which agree. -/
theorem algebraic : Cert.algebraic_KernelIdeal_ReferenceIdeal := by
  intro m ρ m' ρ' _ hagree
  refine ⟨fun c => Cert.Gcn.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.Named.result_eq m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.reference_result, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
